-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 108
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x128, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000, .f32⟩
  | .hbm, ⟨88, _⟩ => ⟨S1700000, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x64, .f32⟩
  | .hbm, ⟨98, _⟩ => ⟨S1700000x1, .f32⟩
  | .hbm, ⟨99, _⟩ => ⟨S1700000x64, .f32⟩
  | .hbm, ⟨100, _⟩ => ⟨S1700000x64, .f32⟩
  | .hbm, ⟨101, _⟩ => ⟨S_, .f32⟩
  | .hbm, ⟨102, _⟩ => ⟨S100000x64, .f32⟩
  | .hbm, ⟨103, _⟩ => ⟨S1700000x1, .i32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .f32⟩
  | .local _ .vmem, ⟨9, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  dot_S10000x128_S128x128_S10000x128_1_0_0_1_n_n_wf : DotDims.WF S10000x128 S128x128 S10000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x128, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x64, .f32⟩
  | .hbm, ⟨101, _⟩ => ⟨S1700000x1, .f32⟩
  | .hbm, ⟨102, _⟩ => ⟨S1700000x64, .f32⟩
  | .hbm, ⟨103, _⟩ => ⟨S1700000x64, .f32⟩
  | .hbm, ⟨104, _⟩ => ⟨S_, .f32⟩
  | .hbm, ⟨105, _⟩ => ⟨S100000x64, .f32⟩
  | .hbm, ⟨106, _⟩ => ⟨S1700000x1, .i32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The kernel program's run with its result named.

  The program is six segments in order — two stretches of host operations, the first matrix-product region, a stretch,
  the second region, a last stretch — and the buffer contents at each boundary are a fold from the launch memory.
  Every weakly fair execution terminates, nothing faulting, and each unscoped buffer ends at the last boundary's
  contents: in particular the result buffer ends at the last fold's value there, and the six arguments end as
  launched.  (The launch over the segments is the one the frame uses; only the final read also keeps the result.)
-/
import proofs.«116013_j12077448036413_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates with the result buffer at the last boundary's contents and
    the arguments as launched. -/
theorem run_result : θ_run defs (onTc (τ := τ) (main (F := F))) ⟨m, fun _ => 0, ρ⟩ (fun r => ∀ c : Dev nD,
      r.2.mem ((c.tc : Thread nD τ).loc main_v80) = W6 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v80 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Run

end
-- ==== Proof.LibRowOps.lean ====
/-
  Rows of a matrix on the extended reals: a plain matrix product read at an entry, and a row's maximum.

  • A matrix product `[a, K] × [K, b]` whose dimension numbers contract the one shared axis reads, at the entry
    `(r, q)`, as the sum over `k : Fin K` of `lhs (r, k) · rhs (k, q)` — for the kernel's product into a zero
    accumulator and for the host's product alike.  The dimension numbers enter only through four coordinate facts
    (which operand coordinate is the output's, which is the contraction's), so the lemma serves any record.
  • The maximum over the lanes of an `[a, b]` matrix, read at row `p`, is the fold of `max` over that row's entries
    from the accumulator's value — for the kernel's lane reduction and for the host's one-axis reduction alike.
-/
import Idealize.ShloMosaic.Lib.Pipeline.Value
import Idealize.ShloMosaic.Lib.ValueIdx
import Idealize.ShloMosaic.PureOps.Ideal.Laws

namespace Cert.RowOps

open Idealize.ShloMosaic Idealize.ShloMosaic.ValueIdx
open scoped BigOperators

/-- The contraction's sum re-indexed by the one contracted coordinate, for operands read at indices whose
    coordinates are those of a plain product. -/
theorem contr_sum_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![a, K]⟩ φ₁) (rhs : FVec Ideal ⟨2, ![K, b]⟩ φ₂) (r : Fin a) (q : Fin b) :
    ∑ k : d.contr.Idx, lhs (d.lhsIdx (ix2 r q) k) * rhs (d.rhsIdx (ix2 r q) k)
      = ∑ k : Fin K, lhs (ix2 r k) * rhs (ix2 k q) := by
  rw [← Equiv.sum_comp (contrEquiv1 d K hr hs).symm]
  refine Finset.sum_congr rfl fun k _ => ?_
  have hk := contrEquiv1_symm_val d K hr hs k
  have el : d.lhsIdx (ix2 r q) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r q) ((contrEquiv1 d K hr hs).symm k) = ix2 k q := funext fun ax => Fin.ext (by
    match ax with
    | ⟨0, _⟩ => exact (hr0 _ _).trans hk
    | ⟨1, _⟩ => exact hr1 _ _)
  rw [el, er]

/-- The kernel's product into a zero accumulator, at an entry. -/
theorem matmul_zero_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    matmul d prec lhs rhs (constant (F := Ideal) ⟨2, ![a, b]⟩ .f32 0x00000000#32) (ix2 r q)
      = ∑ k : Fin K, lhs (ix2 r k) * rhs (ix2 k q) :=
  (Ideal.matmul_constant_zero_apply d prec lhs rhs (ix2 r q)).trans
    (contr_sum_entry d hr hs hl0 hl1 hr0 hr1 lhs rhs r q)

/-- The host's product, at an entry. -/
theorem dotGeneral_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    Host.dotGeneral (F := Ideal) d prec lhs rhs (ix2 r q) = ∑ k : Fin K, lhs (ix2 r k) * rhs (ix2 k q) := by
  simp only [Host.dotGeneral]
  exact (Ideal.dotGeneral_apply d prec _ lhs rhs (ix2 r q)).trans
    (contr_sum_entry d hr hs hl0 hl1 hr0 hr1 lhs rhs r q)

/-- The kernel's maximum over the lanes, at a row: the fold of `max` over the row from the accumulator's value. -/
theorem multiReduction_max_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg (Finset.fold max _ · _) (funext fun k => ?_)
  exact congrArg src (funext fun c => Fin.ext (by match c with | ⟨0, _⟩ => rfl | ⟨1, _⟩ => rfl))

/-- The host's maximum over the lanes, at a row: the same fold from the initial value. -/
theorem hostReduce_max_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := φ)) x init h' hu (ix1 p)
      = (Finset.univ : Finset (Fin b)).fold max (init ix0) (fun k => x (ix2 p k)) := by
  refine (Host.reduce_eq_fold_single FloatOps.maximumf x init h' h hu (ix1 p)).trans ?_
  rw [eq_ix0 (Shape.Idx.first hu)]
  refine congrArg (Finset.fold max _ · _) (funext fun k => ?_)
  exact congrArg x (funext fun c => Fin.ext (by match c with | ⟨0, _⟩ => rfl | ⟨1, _⟩ => rfl))

end Cert.RowOps
-- ==== Proof.Dense.lean ====
/-
  The two dense layers of a two-layer graph convolution, entry by entry on the extended reals.

  A layer multiplies the node features by a weight matrix: entry (p, q) of the product is the sum over the 128
  shared coordinates k of (row p of the features at k) times (the weights at (k, q)).  The second layer first
  clamps every feature from below at the zero word (a rectified linear unit) and then multiplies.  Both are
  stated over the program's literal shapes: 100000 nodes, 128 input and hidden features, 64 output features.
-/
import proofs.«116013_j12077448036413_1_alg».proof.KernelIdeal
import Idealize.ShloMosaic.Lib.ValueIdx
import Idealize.ShloMosaic.PureOps.Ideal

noncomputable section

namespace Cert.Gcn

open Idealize.ShloMosaic Idealize.ShloMosaic.ValueIdx Cert.KernelIdeal
open scoped BigOperators

/-- The first layer's product: features [100000, 128] times weights [128, 128]. -/
def dense1 (x : FVec Ideal S100000x128 .f32) (w : FVec Ideal S128x128 .f32) : FVec Ideal S100000x128 .f32 :=
  fun i => ∑ k : Fin 128, x (ix2 (i 0) k) * w (ix2 k (i 1))

/-- The second layer's product of the clamped features: max(h, 0) [100000, 128] times weights [128, 64]. -/
def dense2 (h : FVec Ideal S100000x128 .f32) (w : FVec Ideal S128x64 .f32) : FVec Ideal S100000x64 .f32 :=
  fun i => ∑ k : Fin 128, max (h (ix2 (i 0) k)) (Ideal.ofBits .f32 0x00000000#32) * w (ix2 k (i 1))

end Cert.Gcn

end
-- ==== Proof.Region0.lean ====
/-
  Region 0 of the kernel program: a row-blocked matrix product x · W1.

  The grid has ten points; point t takes rows 10000·t … 10000·t + 9999 of the features [100000, 128] and the whole
  weight matrix [128, 128], multiplies them into a zero accumulator, and writes the product back as the same rows
  of the result.  An entry of a block's product is a sum over the 128 shared coordinates of that row of the
  features against that column of the weights, which is the entry of the whole product at the block's row offset;
  the ten blocks tile the result, so after the region the result array is the whole product `dense1`.
-/
import proofs.«116013_j12077448036413_1_alg».proof.Proof.Gen.KernelIdeal.Frame
import proofs.«116013_j12077448036413_1_alg».proof.Proof.LibRowOps
import proofs.«116013_j12077448036413_1_alg».proof.Proof.Dense
import Idealize.ShloMosaic.Lib.Pipeline.Value
import Idealize.ShloMosaic.Lib.ValueIdx

set_option maxRecDepth 16384

noncomputable section

namespace Cert.KernelIdeal.Region0

open Cert.KernelIdeal Cert.KernelIdeal.Gen Cert.Gcn
open Idealize.ShloMosaic Idealize.ShloMosaic.TcCoe Idealize.ShloMosaic.ValueIdx Idealize.SL.Sem
open Idealize.ShloMosaic.Pipeline (Dat)
open scoped BigOperators

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-! ## The product's dimension numbers: which operand coordinate is the output's, which the contraction's -/

theorem dot_l0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem dot_l1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem dot_r0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem dot_r1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-! ## The body's value at an entry of the block -/

/-- The block's product at (p, q): row p of the feature block against column q of the weights (a change of float
    format is the identity on the extended reals, and the accumulator is the zero word). -/
theorem pay_entry (x0 : Vec Ideal S10000x128 .f32) (x1 : Vec Ideal S128x128 .f32) (p : Fin 10000) (q : Fin 128) :
    k0_pay1 x0 x1 (ix2 p q) = ∑ k : Fin 128, x0 (ix2 p k) * x1 (ix2 k q) :=
  Cert.RowOps.matmul_zero_entry dot_S10000x128_S128x128_S10000x128_1_0_0_1_n_n rfl rfl dot_l0 dot_l1 dot_r0 dot_r1 none
    (truncf .bf16 x0 bitsLt_bf16_f32) (truncf .bf16 x1 bitsLt_bf16_f32) p q

/-! ## The printed index maps over the grid -/

/-- The row blocks move with the grid point; the weights' block and every column block stay at 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t` is rows 10000·t … 10000·t + 9999 of its array. -/
theorem rows_apply (c : Dev nD) (t : Fin cfg0.N) (x : S10000x128.Idx) (i : S100000x128.Idx)
    (h0 : (i 0).val = 10000 * t.val + (x 0).val) (h1 : (i 1).val = (x 1).val) :
    (iblk0 V c 0 t : Vec Ideal S10000x128 .f32) x = (V c main_arg0 : S100000x128.Idx → Elt Ideal .f32) i := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t 0 * 10000 + 1 * (x 0).val = (i 0).val; rw [e0, h0]; omega
  | ⟨1, _⟩ => show win0_0.index t 1 * 128 + 1 * (x 1).val = (i 1).val; rw [e1, h1]; omega

/-- The weight window's block at every point is the whole weight matrix. -/
theorem weights_apply (c : Dev nD) (t : Fin cfg0.N) (x : S128x128.Idx) (i : S128x128.Idx)
    (h0 : (i 0).val = (x 0).val) (h1 : (i 1).val = (x 1).val) :
    (iblk0 V c 1 t : Vec Ideal S128x128 .f32) x = (V c main_arg2 : S128x128.Idx → Elt Ideal .f32) i := by
  obtain ⟨-, -, e2, e3, -, -⟩ := idx_facts t
  unfold iblk0
  rw [View.read_apply]
  show V c main_arg2 _ = V c main_arg2 _
  congr 1
  funext a
  apply Fin.ext
  match a with
  | ⟨0, _⟩ => show win0_1.index t 0 * 128 + 1 * (x 0).val = (i 0).val; rw [e2, h0]; omega
  | ⟨1, _⟩ => show win0_1.index t 1 * 128 + 1 * (x 1).val = (i 1).val; rw [e3, h1]; omega

/-! ## From the blocks to the array -/

/-- What point `t` writes back is its block of the whole product. -/
theorem flushed_eq (c : Dev nD) (t : Fin cfg0.N) :
    (dat0 V c).flushed 2 t = ((cfg0.win 2).blk t).view.read (Elt Ideal) (dense1 (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨-, -, -, -, e4, e5⟩ := idx_facts t
  funext j
  obtain ⟨p, q, rfl⟩ : ∃ (p : Fin 10000) (q : Fin 128), j = ix2 p q := ⟨j 0, j 1, eq_ix2 j⟩
  show k0_pay1 (iblk0 V c 0 t) (iblk0 V c 1 t) (ix2 p q) = dense1 (V c main_arg0) (V c main_arg2) (((cfg0.win 2).blk t).view.emb (ix2 p q))
  refine (pay_entry (iblk0 V c 0 t) (iblk0 V c 1 t) p q).trans ?_
  unfold dense1
  refine Finset.sum_congr rfl fun k _ => ?_
  have hr : (((cfg0.win 2).blk t).view.emb (ix2 p q) 0).val = 10000 * t.val + p.val := by
    show win0_2.index t 0 * 10000 + 1 * p.val = _; rw [e4]; omega
  have hc : (((cfg0.win 2).blk t).view.emb (ix2 p q) 1).val = q.val := by
    show win0_2.index t 1 * 128 + 1 * q.val = _; rw [e5]; omega
  exact congrArg₂ (· * ·)
    (rows_apply V c t (ix2 p k) (ix2 (((cfg0.win 2).blk t).view.emb (ix2 p q) 0) k) hr rfl)
    (weights_apply V c t (ix2 k q) (ix2 k (((cfg0.win 2).blk t).view.emb (ix2 p q) 1)) rfl hc)

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v17).slice (win0_2.rect t)).set ↔ _
  rw [View.set_slice_whole, Rect.mem_set_unit]
  exact Iff.rfl

/-- Row `r` of the array is in the block of point `r / 10000`: the ten row blocks tile the array. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by rw [hN]; omega⟩, rfl⟩
  refine ⟨t, flush0_2 t, ?_⟩
  rw [mem_blk]
  obtain ⟨-, -, -, -, e4, e5⟩ := idx_facts t
  intro a
  match a with
  | ⟨0, _⟩ => show win0_2.index t 0 * 10000 ≤ (i 0).val ∧ (i 0).val < win0_2.index t 0 * 10000 + 10000; rw [e4, ht]; omega
  | ⟨1, _⟩ => show win0_2.index t 1 * 128 ≤ (i 1).val ∧ (i 1).val < win0_2.index t 1 * 128 + 128; rw [e5]; omega

/-- The region's result array after its last write-back: the whole product of what the region found in its operand arrays. -/
theorem final (c : Dev nD) : (dat0 V c).arrAt 2 cfg0.N = dense1 (V c main_arg0) (V c main_arg2) :=
  (dat0 V c).arrAt_eq_of_cover 2 (dense1 (V c main_arg0) (V c main_arg2)) (fun t _ => flushed_eq V c t) cover

end Cert.KernelIdeal.Region0

end
-- ==== Proof.Region1.lean ====
/-
  Region 1 of the kernel program: a row-blocked matrix product max(h, 0) · W2.

  The grid has ten points; point t takes rows 10000·t … 10000·t + 9999 of the hidden features [100000, 128], clamps
  every entry from below at the zero word, multiplies by the whole weight matrix [128, 64] into a zero accumulator,
  and writes the product back as the same rows of the result.  An entry of a block's product is a sum over the 128
  shared coordinates of the clamped row against a column of the weights, which is the entry of the whole product
  at the block's row offset; the ten blocks tile the result, so after the region the result array is `dense2`.
-/
import proofs.«116013_j12077448036413_1_alg».proof.Proof.Gen.KernelIdeal.Frame
import proofs.«116013_j12077448036413_1_alg».proof.Proof.LibRowOps
import proofs.«116013_j12077448036413_1_alg».proof.Proof.Dense
import Idealize.ShloMosaic.Lib.Pipeline.Value
import Idealize.ShloMosaic.Lib.ValueIdx

set_option maxRecDepth 16384

noncomputable section

namespace Cert.KernelIdeal.Region1

open Cert.KernelIdeal Cert.KernelIdeal.Gen Cert.Gcn
open Idealize.ShloMosaic Idealize.ShloMosaic.TcCoe Idealize.ShloMosaic.ValueIdx Idealize.SL.Sem
open Idealize.ShloMosaic.Pipeline (Dat)
open scoped BigOperators

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-! ## The product's dimension numbers: which operand coordinate is the output's, which the contraction's -/

theorem dot_l0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem dot_l1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem dot_r0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem dot_r1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-! ## The body's value at an entry of the block -/

/-- The block's product at (p, q): row p of the feature block, clamped from below at the zero word, against column q
    of the weights (a change of float format is the identity on the extended reals, a cast to the same shape is the
    identity, and the accumulator is the zero word). -/
theorem pay_entry (x0 : Vec Ideal S10000x128 .f32) (x1 : Vec Ideal S128x64 .f32) (p : Fin 10000) (q : Fin 64) :
    k1_pay1 x0 x1 (ix2 p q) = ∑ k : Fin 128, max (x0 (ix2 p k)) (Ideal.ofBits .f32 0x00000000#32) * x1 (ix2 k q) := by
  refine (Cert.RowOps.matmul_zero_entry dot_S10000x128_S128x64_S10000x64_1_0_0_1_n_n rfl rfl dot_l0 dot_l1 dot_r0 dot_r1 none
    (truncf .bf16 (maximumf (shapeCast S10000x128 x0 shapeCasts_S10000x128_S10000x128) (broadcast S10000x128 (Scalar.ofBits (F := Ideal) .f32 0x00000000#32))) bitsLt_bf16_f32)
    (truncf .bf16 x1 bitsLt_bf16_f32) p q).trans ?_
  refine Finset.sum_congr rfl fun k _ => ?_
  show max (shapeCast S10000x128 x0 shapeCasts_S10000x128_S10000x128 (ix2 p k)) _ * _ = _
  rw [shapeCast_self]
  rfl

/-! ## The printed index maps over the grid -/

/-- The row blocks move with the grid point; the weights' block and every column block stay at 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The feature window's block at point `t` is rows 10000·t … 10000·t + 9999 of its array. -/
theorem rows_apply (c : Dev nD) (t : Fin cfg1.N) (x : S10000x128.Idx) (i : S100000x128.Idx)
    (h0 : (i 0).val = 10000 * t.val + (x 0).val) (h1 : (i 1).val = (x 1).val) :
    (iblk1 V c 0 t : Vec Ideal S10000x128 .f32) x = (V c main_v48 : S100000x128.Idx → Elt Ideal .f32) i := by
  obtain ⟨e0, e1, -, -, -, -⟩ := idx_facts t
  unfold iblk1
  rw [View.read_apply]
  show V c main_v48 _ = V c main_v48 _
  congr 1
  funext a
  apply Fin.ext
  match a with
  | ⟨0, _⟩ => show win1_0.index t 0 * 10000 + 1 * (x 0).val = (i 0).val; rw [e0, h0]; omega
  | ⟨1, _⟩ => show win1_0.index t 1 * 128 + 1 * (x 1).val = (i 1).val; rw [e1, h1]; omega

/-- The weight window's block at every point is the whole weight matrix. -/
theorem weights_apply (c : Dev nD) (t : Fin cfg1.N) (x : S128x64.Idx) (i : S128x64.Idx)
    (h0 : (i 0).val = (x 0).val) (h1 : (i 1).val = (x 1).val) :
    (iblk1 V c 1 t : Vec Ideal S128x64 .f32) x = (V c main_arg4 : S128x64.Idx → Elt Ideal .f32) i := by
  obtain ⟨-, -, e2, e3, -, -⟩ := idx_facts t
  unfold iblk1
  rw [View.read_apply]
  show V c main_arg4 _ = V c main_arg4 _
  congr 1
  funext a
  apply Fin.ext
  match a with
  | ⟨0, _⟩ => show win1_1.index t 0 * 128 + 1 * (x 0).val = (i 0).val; rw [e2, h0]; omega
  | ⟨1, _⟩ => show win1_1.index t 1 * 64 + 1 * (x 1).val = (i 1).val; rw [e3, h1]; omega

/-! ## From the blocks to the array -/

/-- What point `t` writes back is its block of the whole product. -/
theorem flushed_eq (c : Dev nD) (t : Fin cfg1.N) :
    (dat1 V c).flushed 2 t = ((cfg1.win 2).blk t).view.read (Elt Ideal) (dense2 (V c main_v48) (V c main_arg4)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x64) hz]
  obtain ⟨-, -, -, -, e4, e5⟩ := idx_facts t
  funext j
  obtain ⟨p, q, rfl⟩ : ∃ (p : Fin 10000) (q : Fin 64), j = ix2 p q := ⟨j 0, j 1, eq_ix2 j⟩
  show k1_pay1 (iblk1 V c 0 t) (iblk1 V c 1 t) (ix2 p q) = dense2 (V c main_v48) (V c main_arg4) (((cfg1.win 2).blk t).view.emb (ix2 p q))
  refine (pay_entry (iblk1 V c 0 t) (iblk1 V c 1 t) p q).trans ?_
  unfold dense2
  refine Finset.sum_congr rfl fun k _ => ?_
  have hr : (((cfg1.win 2).blk t).view.emb (ix2 p q) 0).val = 10000 * t.val + p.val := by
    show win1_2.index t 0 * 10000 + 1 * p.val = _; rw [e4]; omega
  have hc : (((cfg1.win 2).blk t).view.emb (ix2 p q) 1).val = q.val := by
    show win1_2.index t 1 * 64 + 1 * q.val = _; rw [e5]; omega
  exact congrArg₂ (· * ·)
    (congrArg (max · (Ideal.ofBits .f32 0x00000000#32)) (rows_apply V c t (ix2 p k) (ix2 (((cfg1.win 2).blk t).view.emb (ix2 p q) 0) k) hr rfl))
    (weights_apply V c t (ix2 k q) (ix2 k (((cfg1.win 2).blk t).view.emb (ix2 p q) 1)) rfl hc)

/-- An index of the array is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v49).slice (win1_2.rect t)).set ↔ _
  rw [View.set_slice_whole, Rect.mem_set_unit]
  exact Iff.rfl

/-- Row `r` of the array is in the block of point `r / 10000`: the ten row blocks tile the array. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by rw [hN]; omega⟩, rfl⟩
  refine ⟨t, flush1_2 t, ?_⟩
  rw [mem_blk]
  obtain ⟨-, -, -, -, e4, e5⟩ := idx_facts t
  intro a
  match a with
  | ⟨0, _⟩ => show win1_2.index t 0 * 10000 ≤ (i 0).val ∧ (i 0).val < win1_2.index t 0 * 10000 + 10000; rw [e4, ht]; omega
  | ⟨1, _⟩ => show win1_2.index t 1 * 64 ≤ (i 1).val ∧ (i 1).val < win1_2.index t 1 * 64 + 64; rw [e5]; omega

/-- The region's result array after its last write-back: the whole product of what the region found in its operand arrays. -/
theorem final (c : Dev nD) : (dat1 V c).arrAt 2 cfg1.N = dense2 (V c main_v48) (V c main_arg4) :=
  (dat1 V c).arrAt_eq_of_cover 2 (dense2 (V c main_v48) (V c main_arg4)) (fun t _ => flushed_eq V c t) cover

end Cert.KernelIdeal.Region1

end
-- ==== Proof.Layers.lean ====
/-
  The host side of a two-layer graph convolution, as pure functions of arrays.

  The edge list `e` ([2, 1600000] signed 32-bit ids) gives a source row and a destination row; every node gets a
  self loop, so the source and destination id vectors have 1700000 entries.  A node's degree is the number of
  edges (self loop included) that arrive at it, and its weight is 1/sqrt(max(degree, 1)) where the degree is positive
  and the zero word elsewhere.  One layer's aggregation takes node features `h`, gathers the row of each edge's
  source (a negative id is first moved up by 100000), scales it by the product of the two endpoint weights, sums the
  scaled rows into the destination nodes, and adds the bias row to every node.  These are the program's own host
  operations, named so that both programs' results can be stated over them; nothing here is opened.
-/
import proofs.«116013_j12077448036413_1_alg».proof.Proof.Gen.KernelIdeal

noncomputable section

namespace Cert.Gcn

open Idealize.ShloMosaic Cert.KernelIdeal Cert.KernelIdeal.Facts₀

variable {F : FTy → Type} [FloatOps F]

/-- Source ids: row 0 of the edge list followed by the self loops 0 … 99999. -/
def srcIds (e : (⟨S2x1600000, .i32⟩ : BufTy).Contents (Elt F)) : (⟨S1700000, .i32⟩ : BufTy).Contents (Elt F) :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- Destination ids: row 1 of the edge list followed by the self loops 0 … 99999. -/
def dstIds (e : (⟨S2x1600000, .i32⟩ : BufTy).Contents (Elt F)) : (⟨S1700000, .i32⟩ : BufTy).Contents (Elt F) :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- A node's degree: ones summed into the destination ids, on top of zeros. -/
def degree (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (dstIds e)) (broadcastInDim S1700000 ![] bcast_S_S1700000 (constant S_ .f32 0x3F800000#32))

/-- A node's weight: 1/sqrt(max(degree, 1)) where the degree is positive, the zero word elsewhere. -/
def invSqrtDeg (e : (⟨S2x1600000, .i32⟩ : BufTy).Contents (Elt F)) : (⟨S100000, .f32⟩ : BufTy).Contents (Elt F) :=
  select (cmpf .ogt (degree e) (broadcastInDim S100000 ![] bcast_S_S100000 (constant S_ .f32 0x00000000#32))) (Host.rsqrt (maximumf (degree e) (broadcastInDim S100000 ![] bcast_S_S100000 (constant S_ .f32 0x3F800000#32)))) (broadcastInDim S100000 ![] bcast_S_S100000 (id (constant S_ .f32 0x00000000#32)))

/-- Ids as a one-column matrix for a gather, a negative id first moved up by 100000. -/
def wrapIds (ids : (⟨S1700000, .i32⟩ : BufTy).Contents (Elt F)) : (⟨S1700000x1, .i32⟩ : BufTy).Contents (Elt F) :=
  broadcastInDim S1700000x1 ![0] bcast_S1700000_S1700000x1_0 (select (cmpi .slt ids (broadcastInDim S1700000 ![] bcast_S_S1700000 (constantI S_ 32 0#32))) (addi ids (broadcastInDim S1700000 ![] bcast_S_S1700000 (constantI S_ 32 100000#32))) ids)

/-- An edge's weight: the product of its two endpoints' weights. -/
def edgeNorm (dinv : (⟨S100000, .f32⟩ : BufTy).Contents (Elt F)) (src dst : (⟨S1700000, .i32⟩ : BufTy).Contents (Elt F)) : (⟨S1700000, .f32⟩ : BufTy).Contents (Elt F) :=
  mulf (Host.gather gather_S100000_S1700000x1_S1700000_n_0_n_n_0_1_1 dinv (wrapIds src)) (Host.gather gather_S100000_S1700000x1_S1700000_n_0_n_n_0_1_1 dinv (wrapIds dst))

/-- The hidden layer's aggregation (128 features): gathered source rows, scaled per edge, summed into the destinations, plus the bias row. -/
def aggregate128 (h : (⟨S100000x128, .f32⟩ : BufTy).Contents (Elt F)) (dinv : (⟨S100000, .f32⟩ : BufTy).Contents (Elt F)) (src dst : (⟨S1700000, .i32⟩ : BufTy).Contents (Elt F)) (b : (⟨S128, .f32⟩ : BufTy).Contents (Elt F)) : (⟨S100000x128, .f32⟩ : BufTy).Contents (Elt F) :=
  addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 dst) (mulf (Host.gather gather_S100000x128_S1700000x1_S1700000x128_1_0_n_n_0_1_1128 h (wrapIds src)) (broadcastInDim S1700000x128 ![0, 1] bcast_S1700000x1_S1700000x128_0_1 (broadcastInDim S1700000x1 ![0] bcast_S1700000_S1700000x1_0 (edgeNorm dinv src dst))))) (broadcastInDim S100000x128 ![0, 1] bcast_S1x128_S100000x128_0_1 (broadcastInDim S1x128 ![1] bcast_S128_S1x128_1 b))

/-- The output layer's aggregation (64 features), the same operations at the narrower width. -/
def aggregate64 (h : (⟨S100000x64, .f32⟩ : BufTy).Contents (Elt F)) (dinv : (⟨S100000, .f32⟩ : BufTy).Contents (Elt F)) (src dst : (⟨S1700000, .i32⟩ : BufTy).Contents (Elt F)) (b : (⟨S64, .f32⟩ : BufTy).Contents (Elt F)) : (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst) (mulf (Host.gather gather_S100000x64_S1700000x1_S1700000x64_1_0_n_n_0_1_164 h (wrapIds src)) (broadcastInDim S1700000x64 ![0, 1] bcast_S1700000x1_S1700000x64_0_1 (broadcastInDim S1700000x1 ![0] bcast_S1700000_S1700000x1_0 (edgeNorm dinv src dst))))) (broadcastInDim S100000x64 ![0, 1] bcast_S1x64_S100000x64_0_1 (broadcastInDim S1x64 ![1] bcast_S64_S1x64_1 b))

/-- The rectified linear unit on the host: every entry clamped from below at the zero word. -/
def relu (h : (⟨S100000x128, .f32⟩ : BufTy).Contents (Elt F)) : (⟨S100000x128, .f32⟩ : BufTy).Contents (Elt F) :=
  maximumf h (broadcastInDim S100000x128 ![] bcast_S_S100000x128 (constant S_ .f32 0x00000000#32))

end Cert.Gcn

end
-- ==== Proof.LibJoin.lean ====
/-
  Two general facts about host programs read as pure terms.

  • Arrays joined along an axis (a two-piece `concatenate`) depend on each piece only through its contents.  The join
    takes its pieces as a list of (shape, contents) pairs and a proof about the list's shapes, so a rewriting pass does
    not enter the pieces by itself: stated as a congruence rule, it does — a buffer read sitting inside a join is then
    evaluated like any other operand.
  • An outlined function reads and writes its buffers through typed references; writing a value and reading it back
    through the same reference returns the value (the two transports along the type equation cancel).
-/
import Idealize.ShloMosaic.Lib.StableHlo
import Idealize.ShloMosaic.PureOps.Ideal

namespace Cert.Join

open Idealize.ShloMosaic Idealize.ShloMosaic.StableHlo

/-- Equal pieces give equal joins (a congruence rule for the two-piece join). -/
@[congr] theorem concatenate_pair_congr {α : Type} {t s₁ s₂ : Shape} (a : Fin t.rank) {x₁ x₁' : s₁.Idx → α} {x₂ x₂' : s₂.Idx → α}
    (h : Shape.Concatenates (([⟨s₁, x₁⟩, ⟨s₂, x₂⟩] : List ((s : Shape) × (s.Idx → α))).map (·.1)) t a)
    (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

/-- Reading a typed buffer back right after writing it returns what was written. -/
theorem ofBuf_toBuf {sig : RefSig} {Val : EltTy → Type} {T : BufTy} (x : TRef sig T) (v : T.Contents Val) : x.ofBuf (x.toBuf v) = v := by
  show cast _ (cast _ v) = v
  rw [cast_cast, cast_eq]

end Cert.Join
-- ==== Proof.KernelValue.lean ====
/-
  The kernel program's result as one function of its arguments, on the extended reals.

  The buffer contents at the six segment boundaries are a fold from the launch memory.  Read at the buffers that
  matter: the first stretches leave the source ids, the destination ids and the node weights (functions of the edge
  list alone); region 0 leaves the whole product x · W1 in its result array and touches nothing else that is read
  later; the middle stretch leaves the hidden layer's aggregation of that product; region 1 leaves the product of the
  clamped hidden features with W2; the last stretch leaves the output layer's aggregation, which is the result.
  Every other buffer read along the way is one no operation and no region in between writes, so it keeps its contents.
-/
import proofs.«116013_j12077448036413_1_alg».proof.Proof.Gen.KernelIdeal.Frame
import proofs.«116013_j12077448036413_1_alg».proof.Proof.Region0
import proofs.«116013_j12077448036413_1_alg».proof.Proof.Region1
import proofs.«116013_j12077448036413_1_alg».proof.Proof.Layers
import proofs.«116013_j12077448036413_1_alg».proof.Proof.LibJoin
import Idealize.ShloMosaic.Lib.StableHlo.Run

set_option maxRecDepth 16384

noncomputable section

namespace Cert.KernelIdeal.Closed

open Cert.KernelIdeal Cert.KernelIdeal.Gen Cert.Gcn
open Idealize.ShloMosaic Idealize.ShloMosaic.TcCoe Idealize.ShloMosaic.StableHlo Idealize.SL.Sem

section AnyFloats

variable {F : FTy → Type} [FloatOps F]
variable (m : (ℓ : Loc nD τ sig) → Buf (Elt F) ℓ) (ρ : Dev nD → PrngReg)

/-! ## Region 0's entry: the arguments as launched, the ids and the node weights as functions of the edge list -/

theorem W2_arg0 (c : Dev nD) : W2 m ρ c (Proc.devRef .tc main_arg0) = m ((c : Thread nD τ).loc main_arg0) := by
  show StableHlo.after hostOps0_1 (StableHlo.after hostOps0 (W0 m ρ c)) (Proc.devRef .tc main_arg0) = _
  dsimp only [hostOps0_1, hostOps0]
  after_results_simp <;> rfl
theorem W2_arg2 (c : Dev nD) : W2 m ρ c (Proc.devRef .tc main_arg2) = m ((c : Thread nD τ).loc main_arg2) := by
  show StableHlo.after hostOps0_1 (StableHlo.after hostOps0 (W0 m ρ c)) (Proc.devRef .tc main_arg2) = _
  dsimp only [hostOps0_1, hostOps0]
  after_results_simp <;> rfl
theorem W2_arg3 (c : Dev nD) : W2 m ρ c (Proc.devRef .tc main_arg3) = m ((c : Thread nD τ).loc main_arg3) := by
  show StableHlo.after hostOps0_1 (StableHlo.after hostOps0 (W0 m ρ c)) (Proc.devRef .tc main_arg3) = _
  dsimp only [hostOps0_1, hostOps0]
  after_results_simp <;> rfl
theorem W2_arg4 (c : Dev nD) : W2 m ρ c (Proc.devRef .tc main_arg4) = m ((c : Thread nD τ).loc main_arg4) := by
  show StableHlo.after hostOps0_1 (StableHlo.after hostOps0 (W0 m ρ c)) (Proc.devRef .tc main_arg4) = _
  dsimp only [hostOps0_1, hostOps0]
  after_results_simp <;> rfl
theorem W2_arg5 (c : Dev nD) : W2 m ρ c (Proc.devRef .tc main_arg5) = m ((c : Thread nD τ).loc main_arg5) := by
  show StableHlo.after hostOps0_1 (StableHlo.after hostOps0 (W0 m ρ c)) (Proc.devRef .tc main_arg5) = _
  dsimp only [hostOps0_1, hostOps0]
  after_results_simp <;> rfl

theorem W2_v3 (c : Dev nD) : W2 m ρ c (Proc.devRef .tc main_v3) = srcIds (m ((c : Thread nD τ).loc main_arg1)) := by
  show StableHlo.after hostOps0_1 (StableHlo.after hostOps0 (W0 m ρ c)) (Proc.devRef .tc main_v3) = _
  dsimp only [hostOps0_1, hostOps0]
  after_results_simp <;> rfl
theorem W2_v6 (c : Dev nD) : W2 m ρ c (Proc.devRef .tc main_v6) = dstIds (m ((c : Thread nD τ).loc main_arg1)) := by
  show StableHlo.after hostOps0_1 (StableHlo.after hostOps0 (W0 m ρ c)) (Proc.devRef .tc main_v6) = _
  dsimp only [hostOps0_1, hostOps0]
  after_results_simp <;> rfl
theorem W2_v16 (c : Dev nD) : W2 m ρ c (Proc.devRef .tc main_v16) = invSqrtDeg (m ((c : Thread nD τ).loc main_arg1)) := by
  show StableHlo.after hostOps0_1 (StableHlo.after hostOps0 (W0 m ρ c)) (Proc.devRef .tc main_v16) = _
  dsimp only [hostOps0_1, hostOps0]
  after_results_simp <;> rfl

/-! ## Region 0's exit: every buffer read later is as entered -/

theorem W3_v3 (c : Dev nD) : W3 m ρ c (Proc.devRef .tc main_v3) = W2 m ρ c (Proc.devRef .tc main_v3) :=
  W3_of_ne m ρ c main_v3 (by decide)
theorem W3_v6 (c : Dev nD) : W3 m ρ c (Proc.devRef .tc main_v6) = W2 m ρ c (Proc.devRef .tc main_v6) :=
  W3_of_ne m ρ c main_v6 (by decide)
theorem W3_v16 (c : Dev nD) : W3 m ρ c (Proc.devRef .tc main_v16) = W2 m ρ c (Proc.devRef .tc main_v16) :=
  W3_of_ne m ρ c main_v16 (by decide)
theorem W3_arg3 (c : Dev nD) : W3 m ρ c (Proc.devRef .tc main_arg3) = W2 m ρ c (Proc.devRef .tc main_arg3) :=
  W3_of_ne m ρ c main_arg3 (by decide)
theorem W3_arg4 (c : Dev nD) : W3 m ρ c (Proc.devRef .tc main_arg4) = W2 m ρ c (Proc.devRef .tc main_arg4) :=
  W3_of_ne m ρ c main_arg4 (by decide)
theorem W3_arg5 (c : Dev nD) : W3 m ρ c (Proc.devRef .tc main_arg5) = W2 m ρ c (Proc.devRef .tc main_arg5) :=
  W3_of_ne m ρ c main_arg5 (by decide)

/-! ## Region 1's entry: the hidden layer's aggregation, the buffers read later kept -/

theorem W4_v48 (c : Dev nD) : W4 m ρ c (Proc.devRef .tc main_v48) = aggregate128 (W3 m ρ c (Proc.devRef .tc main_v17)) (W3 m ρ c (Proc.devRef .tc main_v16)) (W3 m ρ c (Proc.devRef .tc main_v3)) (W3 m ρ c (Proc.devRef .tc main_v6)) (W3 m ρ c (Proc.devRef .tc main_arg3)) := by
  show StableHlo.after hostOps1 (W3 m ρ c) (Proc.devRef .tc main_v48) = _
  dsimp only [hostOps1]
  after_results_simp <;> rfl
theorem W4_v3 (c : Dev nD) : W4 m ρ c (Proc.devRef .tc main_v3) = W3 m ρ c (Proc.devRef .tc main_v3) := by
  show StableHlo.after hostOps1 (W3 m ρ c) (Proc.devRef .tc main_v3) = _
  dsimp only [hostOps1]
  after_results_simp
theorem W4_v6 (c : Dev nD) : W4 m ρ c (Proc.devRef .tc main_v6) = W3 m ρ c (Proc.devRef .tc main_v6) := by
  show StableHlo.after hostOps1 (W3 m ρ c) (Proc.devRef .tc main_v6) = _
  dsimp only [hostOps1]
  after_results_simp
theorem W4_v16 (c : Dev nD) : W4 m ρ c (Proc.devRef .tc main_v16) = W3 m ρ c (Proc.devRef .tc main_v16) := by
  show StableHlo.after hostOps1 (W3 m ρ c) (Proc.devRef .tc main_v16) = _
  dsimp only [hostOps1]
  after_results_simp
theorem W4_arg4 (c : Dev nD) : W4 m ρ c (Proc.devRef .tc main_arg4) = W3 m ρ c (Proc.devRef .tc main_arg4) := by
  show StableHlo.after hostOps1 (W3 m ρ c) (Proc.devRef .tc main_arg4) = _
  dsimp only [hostOps1]
  after_results_simp
theorem W4_arg5 (c : Dev nD) : W4 m ρ c (Proc.devRef .tc main_arg5) = W3 m ρ c (Proc.devRef .tc main_arg5) := by
  show StableHlo.after hostOps1 (W3 m ρ c) (Proc.devRef .tc main_arg5) = _
  dsimp only [hostOps1]
  after_results_simp

/-! ## Region 1's exit: every buffer read later is as entered -/

theorem W5_v3 (c : Dev nD) : W5 m ρ c (Proc.devRef .tc main_v3) = W4 m ρ c (Proc.devRef .tc main_v3) :=
  W5_of_ne m ρ c main_v3 (by decide)
theorem W5_v6 (c : Dev nD) : W5 m ρ c (Proc.devRef .tc main_v6) = W4 m ρ c (Proc.devRef .tc main_v6) :=
  W5_of_ne m ρ c main_v6 (by decide)
theorem W5_v16 (c : Dev nD) : W5 m ρ c (Proc.devRef .tc main_v16) = W4 m ρ c (Proc.devRef .tc main_v16) :=
  W5_of_ne m ρ c main_v16 (by decide)
theorem W5_arg5 (c : Dev nD) : W5 m ρ c (Proc.devRef .tc main_arg5) = W4 m ρ c (Proc.devRef .tc main_arg5) :=
  W5_of_ne m ρ c main_arg5 (by decide)

/-! ## The return: the output layer's aggregation -/

theorem W6_v80 (c : Dev nD) : W6 m ρ c (Proc.devRef .tc main_v80) = aggregate64 (W5 m ρ c (Proc.devRef .tc main_v49)) (W5 m ρ c (Proc.devRef .tc main_v16)) (W5 m ρ c (Proc.devRef .tc main_v3)) (W5 m ρ c (Proc.devRef .tc main_v6)) (W5 m ρ c (Proc.devRef .tc main_arg5)) := by
  show StableHlo.after hostOps2 (W5 m ρ c) (Proc.devRef .tc main_v80) = _
  dsimp only [hostOps2]
  after_results_simp <;> rfl

end AnyFloats

/-! ## On the extended reals: the two regions' result arrays, and the whole result -/

variable (m : (ℓ : Loc nD τ sig) → Buf (Elt Ideal) ℓ) (ρ : Dev nD → PrngReg)

theorem W3_v17 (c : Dev nD) : W3 m ρ c (Proc.devRef .tc main_v17) = dense1 (m ((c : Thread nD τ).loc main_arg0)) (m ((c : Thread nD τ).loc main_arg2)) := by
  refine (W3_arr m ρ c 2).trans ((Region0.final (V2 m ρ) c).trans ?_)
  show dense1 (W2 m ρ c (Proc.devRef .tc main_arg0)) (W2 m ρ c (Proc.devRef .tc main_arg2)) = _
  rw [W2_arg0, W2_arg2]

theorem W5_v49 (c : Dev nD) : W5 m ρ c (Proc.devRef .tc main_v49) = dense2 (W4 m ρ c (Proc.devRef .tc main_v48)) (W4 m ρ c (Proc.devRef .tc main_arg4)) :=
  (W5_arr m ρ c 2).trans (Region1.final (V4 m ρ) c)

/-- The kernel program's result: two layers, each a dense product followed by the aggregation over the edges. -/
def result (x : FVec Ideal S100000x128 .f32) (e : (⟨S2x1600000, .i32⟩ : BufTy).Contents (Elt Ideal)) (w1 : FVec Ideal S128x128 .f32) (b1 : FVec Ideal S128 .f32)
    (w2 : FVec Ideal S128x64 .f32) (b2 : FVec Ideal S64 .f32) : FVec Ideal S100000x64 .f32 :=
  aggregate64 (dense2 (aggregate128 (dense1 x w1) (invSqrtDeg e) (srcIds e) (dstIds e) b1) w2) (invSqrtDeg e) (srcIds e) (dstIds e) b2

/-- The last boundary's contents at the result buffer are `result` of the launch contents of the six arguments. -/
theorem W6_result (c : Dev nD) : W6 m ρ c (Proc.devRef .tc main_v80) =
    result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [W6_v80, W5_v49, W5_v16, W5_v3, W5_v6, W5_arg5, W4_v48, W4_v16, W4_v3, W4_v6, W4_arg4, W4_arg5,
    W3_v17, W3_v16, W3_v3, W3_v6, W3_arg3, W3_arg4, W3_arg5, W2_v16, W2_v3, W2_v6, W2_arg3, W2_arg4, W2_arg5]
  rfl

end Cert.KernelIdeal.Closed

end
-- ==== Proof.RefRun.lean ====
/-
  The reference program's run, read back.

  The reference is a straight line of 105 host operations (the two outlined functions' operations standing in their
  calls' places).  Every weakly fair execution terminates with each buffer at the fold of the operations from the
  launch memory; read at the result buffer the fold is: the source ids, destination ids and node weights from the
  edge list, the host's product x · W1, the hidden layer's aggregation, the clamp at the zero word, the host's product
  with W2, and the output layer's aggregation.  The arguments are written by no operation.
-/
import proofs.«116013_j12077448036413_1_alg».proof.Proof.Gen.ReferenceIdeal
import proofs.«116013_j12077448036413_1_alg».proof.Proof.Layers
import proofs.«116013_j12077448036413_1_alg».proof.Proof.LibJoin
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's 105 operations, in order. -/
abbrev ops : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (maximumf : (⟨S100000, .f32⟩ : BufTy).Contents (Elt F) → (⟨S100000, .f32⟩ : BufTy).Contents (Elt F) → (⟨S100000, .f32⟩ : BufTy).Contents (Elt F)),
    StableHlo.unary main_v14 main_v15 (Host.rsqrt : (⟨S100000, .f32⟩ : BufTy).Contents (Elt F) → (⟨S100000, .f32⟩ : BufTy).Contents (Elt F)),
    StableHlo.nullary main_cst_3 (constant S_ .f32 0x00000000#32),
    StableHlo.TRef.unary (StableHlo.TRef.of (T := ⟨S_, .f32⟩) main_cst_3) (StableHlo.TRef.of (T := ⟨S_, .f32⟩) main_call0_v0) id,
    StableHlo.TRef.unary (StableHlo.TRef.of (T := ⟨S_, .f32⟩) main_call0_v0) (StableHlo.TRef.of (T := ⟨S100000, .f32⟩) main_call0_v1) (broadcastInDim S100000 ![] bcast_S_S100000),
    StableHlo.TRef.ternary (StableHlo.TRef.of (T := ⟨S100000, .i1⟩) main_v12) (StableHlo.TRef.of (T := ⟨S100000, .f32⟩) main_v15) (StableHlo.TRef.of (T := ⟨S100000, .f32⟩) main_call0_v1) (StableHlo.TRef.of (T := ⟨S100000, .f32⟩) main_v16) select,
    StableHlo.binary main_arg0 main_arg2 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c (constantI S_ 32 0#32),
    StableHlo.unary main_c main_v18 (broadcastInDim S1700000 ![] bcast_S_S1700000 : (⟨S_, .i32⟩ : BufTy).Contents (Elt F) → (⟨S1700000, .i32⟩ : BufTy).Contents (Elt F)),
    StableHlo.binary main_v3 main_v18 main_v19 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v20 (broadcastInDim S1700000 ![] bcast_S_S1700000 : (⟨S_, .i32⟩ : BufTy).Contents (Elt F) → (⟨S1700000, .i32⟩ : BufTy).Contents (Elt F)),
    StableHlo.binary main_v3 main_v20 main_v21 (addi : (⟨S1700000, .i32⟩ : BufTy).Contents (Elt F) → (⟨S1700000, .i32⟩ : BufTy).Contents (Elt F) → (⟨S1700000, .i32⟩ : BufTy).Contents (Elt F)),
    StableHlo.ternary main_v19 main_v21 main_v3 main_v22 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v22 main_v23 (broadcastInDim S1700000x1 ![0] bcast_S1700000_S1700000x1_0 : (⟨S1700000, .i32⟩ : BufTy).Contents (Elt F) → (⟨S1700000x1, .i32⟩ : BufTy).Contents (Elt F)),
    StableHlo.binary main_v16 main_v23 main_v24 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_5 (constantI S_ 32 0#32),
    StableHlo.unary main_c_5 main_v25 (broadcastInDim S1700000 ![] bcast_S_S1700000 : (⟨S_, .i32⟩ : BufTy).Contents (Elt F) → (⟨S1700000, .i32⟩ : BufTy).Contents (Elt F)),
    StableHlo.binary main_v6 main_v25 main_v26 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v27 (broadcastInDim S1700000 ![] bcast_S_S1700000 : (⟨S_, .i32⟩ : BufTy).Contents (Elt F) → (⟨S1700000, .i32⟩ : BufTy).Contents (Elt F)),
    StableHlo.binary main_v6 main_v27 main_v28 (addi : (⟨S1700000, .i32⟩ : BufTy).Contents (Elt F) → (⟨S1700000, .i32⟩ : BufTy).Contents (Elt F) → (⟨S1700000, .i32⟩ : BufTy).Contents (Elt F)),
    StableHlo.ternary main_v26 main_v28 main_v6 main_v29 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v29 main_v30 (broadcastInDim S1700000x1 ![0] bcast_S1700000_S1700000x1_0 : (⟨S1700000, .i32⟩ : BufTy).Contents (Elt F) → (⟨S1700000x1, .i32⟩ : BufTy).Contents (Elt F)),
    StableHlo.binary main_v16 main_v30 main_v31 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v24 main_v31 main_v32 (mulf : (⟨S1700000, .f32⟩ : BufTy).Contents (Elt F) → (⟨S1700000, .f32⟩ : BufTy).Contents (Elt F) → (⟨S1700000, .f32⟩ : BufTy).Contents (Elt F)),
    StableHlo.nullary main_c_7 (constantI S_ 32 0#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v3 main_v33 main_v34 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v35 (broadcastInDim S1700000 ![] bcast_S_S1700000 : (⟨S_, .i32⟩ : BufTy).Contents (Elt F) → (⟨S1700000, .i32⟩ : BufTy).Contents (Elt F)),
    StableHlo.binary main_v3 main_v35 main_v36 (addi : (⟨S1700000, .i32⟩ : BufTy).Contents (Elt F) → (⟨S1700000, .i32⟩ : BufTy).Contents (Elt F) → (⟨S1700000, .i32⟩ : BufTy).Contents (Elt F)),
    StableHlo.ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v37 main_v38 (broadcastInDim S1700000x1 ![0] bcast_S1700000_S1700000x1_0 : (⟨S1700000, .i32⟩ : BufTy).Contents (Elt F) → (⟨S1700000x1, .i32⟩ : BufTy).Contents (Elt F)),
    StableHlo.binary main_v17 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v32 main_v40 (broadcastInDim S1700000x1 ![0] bcast_S1700000_S1700000x1_0 : (⟨S1700000, .f32⟩ : BufTy).Contents (Elt F) → (⟨S1700000x1, .f32⟩ : BufTy).Contents (Elt F)),
    StableHlo.unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    StableHlo.nullary main_cst_9 (constant S_ .f32 0x00000000#32),
    StableHlo.unary main_cst_9 main_v43 (broadcastInDim S100000x128 ![] bcast_S_S100000x128 : (⟨S_, .f32⟩ : BufTy).Contents (Elt F) → (⟨S100000x128, .f32⟩ : BufTy).Contents (Elt F)),
    StableHlo.unary main_v6 main_v44 (broadcastInDim S1700000x1 ![0] bcast_S1700000_S1700000x1_0 : (⟨S1700000, .i32⟩ : BufTy).Contents (Elt F) → (⟨S1700000x1, .i32⟩ : BufTy).Contents (Elt F)),
    StableHlo.ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg3 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (addf : (⟨S100000x128, .f32⟩ : BufTy).Contents (Elt F) → (⟨S100000x128, .f32⟩ : BufTy).Contents (Elt F) → (⟨S100000x128, .f32⟩ : BufTy).Contents (Elt F)),
    StableHlo.TRef.nullary (StableHlo.TRef.of (T := ⟨S_, .f32⟩) main_call1_cst) (constant S_ .f32 0x00000000#32),
    StableHlo.TRef.unary (StableHlo.TRef.of (T := ⟨S_, .f32⟩) main_call1_cst) (StableHlo.TRef.of (T := ⟨S100000x128, .f32⟩) main_call1_v0) (broadcastInDim S100000x128 ![] bcast_S_S100000x128),
    StableHlo.TRef.binary (StableHlo.TRef.of (T := ⟨S100000x128, .f32⟩) main_v48) (StableHlo.TRef.of (T := ⟨S100000x128, .f32⟩) main_call1_v0) (StableHlo.TRef.of (T := ⟨S100000x128, .f32⟩) main_v49) maximumf,
    StableHlo.binary main_v49 main_arg4 main_v50 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.nullary main_c_10 (constantI S_ 32 0#32),
    StableHlo.unary main_c_10 main_v51 (broadcastInDim S1700000 ![] bcast_S_S1700000 : (⟨S_, .i32⟩ : BufTy).Contents (Elt F) → (⟨S1700000, .i32⟩ : BufTy).Contents (Elt F)),
    StableHlo.binary main_v3 main_v51 main_v52 (cmpi .slt : (⟨S1700000, .i32⟩ : BufTy).Contents (Elt F) → (⟨S1700000, .i32⟩ : BufTy).Contents (Elt F) → (⟨S1700000, .i1⟩ : BufTy).Contents (Elt F)),
    StableHlo.nullary main_c_11 (constantI S_ 32 100000#32),
    StableHlo.unary main_c_11 main_v53 (broadcastInDim S1700000 ![] bcast_S_S1700000 : (⟨S_, .i32⟩ : BufTy).Contents (Elt F) → (⟨S1700000, .i32⟩ : BufTy).Contents (Elt F)),
    StableHlo.binary main_v3 main_v53 main_v54 (addi : (⟨S1700000, .i32⟩ : BufTy).Contents (Elt F) → (⟨S1700000, .i32⟩ : BufTy).Contents (Elt F) → (⟨S1700000, .i32⟩ : BufTy).Contents (Elt F)),
    StableHlo.ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v55 main_v56 (broadcastInDim S1700000x1 ![0] bcast_S1700000_S1700000x1_0 : (⟨S1700000, .i32⟩ : BufTy).Contents (Elt F) → (⟨S1700000x1, .i32⟩ : BufTy).Contents (Elt F)),
    StableHlo.binary main_v16 main_v56 main_v57 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_12 (constantI S_ 32 0#32),
    StableHlo.unary main_c_12 main_v58 (broadcastInDim S1700000 ![] bcast_S_S1700000 : (⟨S_, .i32⟩ : BufTy).Contents (Elt F) → (⟨S1700000, .i32⟩ : BufTy).Contents (Elt F)),
    StableHlo.binary main_v6 main_v58 main_v59 (cmpi .slt : (⟨S1700000, .i32⟩ : BufTy).Contents (Elt F) → (⟨S1700000, .i32⟩ : BufTy).Contents (Elt F) → (⟨S1700000, .i1⟩ : BufTy).Contents (Elt F)),
    StableHlo.nullary main_c_13 (constantI S_ 32 100000#32),
    StableHlo.unary main_c_13 main_v60 (broadcastInDim S1700000 ![] bcast_S_S1700000 : (⟨S_, .i32⟩ : BufTy).Contents (Elt F) → (⟨S1700000, .i32⟩ : BufTy).Contents (Elt F)),
    StableHlo.binary main_v6 main_v60 main_v61 (addi : (⟨S1700000, .i32⟩ : BufTy).Contents (Elt F) → (⟨S1700000, .i32⟩ : BufTy).Contents (Elt F) → (⟨S1700000, .i32⟩ : BufTy).Contents (Elt F)),
    StableHlo.ternary main_v59 main_v61 main_v6 main_v62 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v62 main_v63 (broadcastInDim S1700000x1 ![0] bcast_S1700000_S1700000x1_0 : (⟨S1700000, .i32⟩ : BufTy).Contents (Elt F) → (⟨S1700000x1, .i32⟩ : BufTy).Contents (Elt F)),
    StableHlo.binary main_v16 main_v63 main_v64 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v57 main_v64 main_v65 (mulf : (⟨S1700000, .f32⟩ : BufTy).Contents (Elt F) → (⟨S1700000, .f32⟩ : BufTy).Contents (Elt F) → (⟨S1700000, .f32⟩ : BufTy).Contents (Elt F)),
    StableHlo.nullary main_c_14 (constantI S_ 32 0#32),
    StableHlo.unary main_c_14 main_v66 (broadcastInDim S1700000 ![] bcast_S_S1700000 : (⟨S_, .i32⟩ : BufTy).Contents (Elt F) → (⟨S1700000, .i32⟩ : BufTy).Contents (Elt F)),
    StableHlo.binary main_v3 main_v66 main_v67 (cmpi .slt : (⟨S1700000, .i32⟩ : BufTy).Contents (Elt F) → (⟨S1700000, .i32⟩ : BufTy).Contents (Elt F) → (⟨S1700000, .i1⟩ : BufTy).Contents (Elt F)),
    StableHlo.nullary main_c_15 (constantI S_ 32 100000#32),
    StableHlo.unary main_c_15 main_v68 (broadcastInDim S1700000 ![] bcast_S_S1700000 : (⟨S_, .i32⟩ : BufTy).Contents (Elt F) → (⟨S1700000, .i32⟩ : BufTy).Contents (Elt F)),
    StableHlo.binary main_v3 main_v68 main_v69 (addi : (⟨S1700000, .i32⟩ : BufTy).Contents (Elt F) → (⟨S1700000, .i32⟩ : BufTy).Contents (Elt F) → (⟨S1700000, .i32⟩ : BufTy).Contents (Elt F)),
    StableHlo.ternary main_v67 main_v69 main_v3 main_v70 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v70 main_v71 (broadcastInDim S1700000x1 ![0] bcast_S1700000_S1700000x1_0 : (⟨S1700000, .i32⟩ : BufTy).Contents (Elt F) → (⟨S1700000x1, .i32⟩ : BufTy).Contents (Elt F)),
    StableHlo.binary main_v50 main_v71 main_v72 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v65 main_v73 (broadcastInDim S1700000x1 ![0] bcast_S1700000_S1700000x1_0 : (⟨S1700000, .f32⟩ : BufTy).Contents (Elt F) → (⟨S1700000x1, .f32⟩ : BufTy).Contents (Elt F)),
    StableHlo.unary main_v73 main_v74 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v72 main_v74 main_v75 (mulf : (⟨S1700000x64, .f32⟩ : BufTy).Contents (Elt F) → (⟨S1700000x64, .f32⟩ : BufTy).Contents (Elt F) → (⟨S1700000x64, .f32⟩ : BufTy).Contents (Elt F)),
    StableHlo.nullary main_cst_16 (constant S_ .f32 0x00000000#32),
    StableHlo.unary main_cst_16 main_v76 (broadcastInDim S100000x64 ![] bcast_S_S100000x64 : (⟨S_, .f32⟩ : BufTy).Contents (Elt F) → (⟨S100000x64, .f32⟩ : BufTy).Contents (Elt F)),
    StableHlo.unary main_v6 main_v77 (broadcastInDim S1700000x1 ![0] bcast_S1700000_S1700000x1_0 : (⟨S1700000, .i32⟩ : BufTy).Contents (Elt F) → (⟨S1700000x1, .i32⟩ : BufTy).Contents (Elt F)),
    StableHlo.ternary main_v76 main_v77 main_v75 main_v78 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg5 main_v79 (broadcastInDim S1x64 ![1] bcast_S64_S1x64_1 : (⟨S64, .f32⟩ : BufTy).Contents (Elt F) → (⟨S1x64, .f32⟩ : BufTy).Contents (Elt F)),
    StableHlo.unary main_v79 main_v80 (broadcastInDim S100000x64 ![0, 1] bcast_S1x64_S100000x64_0_1 : (⟨S1x64, .f32⟩ : BufTy).Contents (Elt F) → (⟨S100000x64, .f32⟩ : BufTy).Contents (Elt F)),
    StableHlo.binary main_v78 main_v80 main_v81 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-- The reference's result as a function of its arguments: two layers, each the host's dense product followed by the
    aggregation over the edges, the hidden features clamped at the zero word in between. -/
def result (x : (⟨S100000x128, .f32⟩ : BufTy).Contents (Elt F)) (e : (⟨S2x1600000, .i32⟩ : BufTy).Contents (Elt F))
    (w1 : (⟨S128x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) : (⟨S100000x64, .f32⟩ : BufTy).Contents (Elt F) :=
  Cert.Gcn.aggregate64
    (Host.dotGeneral dot_S100000x128_S128x64_S100000x64_1_0_0_1_n_n none
      (Cert.Gcn.relu (Cert.Gcn.aggregate128 (Host.dotGeneral dot_S100000x128_S128x128_S100000x128_1_0_0_1_n_n none x w1)
        (Cert.Gcn.invSqrtDeg e) (Cert.Gcn.srcIds e) (Cert.Gcn.dstIds e) b1)) w2)
    (Cert.Gcn.invSqrtDeg e) (Cert.Gcn.srcIds e) (Cert.Gcn.dstIds e) b2

set_option maxRecDepth 8192 in
set_option maxHeartbeats 42000000 in
/-- On every device, from any memory with zero counters: every weakly fair execution of the reference terminates with
    the result buffer at `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v81) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v81).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Hand

end
-- ==== Proof.RefDense.lean ====
/-
  The host's two dense products, entry by entry on the extended reals.

  The reference multiplies with `dot_general`, contracting the features' column axis against the weights' row axis:
  at entry (p, q) that is the sum over the 128 shared coordinates, the same sum the row-blocked kernel products leave
  in their result arrays.  The second product's left operand is the hidden features clamped at the zero word.
-/
import proofs.«116013_j12077448036413_1_alg».proof.Proof.Gen.ReferenceIdeal
import proofs.«116013_j12077448036413_1_alg».proof.Proof.LibRowOps
import proofs.«116013_j12077448036413_1_alg».proof.Proof.Dense
import proofs.«116013_j12077448036413_1_alg».proof.Proof.Layers
import Idealize.ShloMosaic.Lib.ValueIdx

noncomputable section

namespace Cert.ReferenceIdeal.HandDense

open Cert.ReferenceIdeal Cert.ReferenceIdeal.Gen Idealize.ShloMosaic Idealize.ShloMosaic.ValueIdx
open scoped BigOperators

/-! ## The two products' dimension numbers: which operand coordinate is the output's, which the contraction's -/

theorem l0_first (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem l1_first (i : S100000x128.Idx) (q : dot_S100000x128_S128x128_S100000x128_1_0_0_1_n_n.contr.Idx) : (dot_S100000x128_S128x128_S100000x128_1_0_0_1_n_n.lhsIdx i q 1).val = (q ⟨0, by decide⟩).val :=
  dot_S100000x128_S128x128_S100000x128_1_0_0_1_n_n.lhsIdx_val_of_single rfl i q
theorem r0_first (i : S100000x128.Idx) (q : dot_S100000x128_S128x128_S100000x128_1_0_0_1_n_n.contr.Idx) : (dot_S100000x128_S128x128_S100000x128_1_0_0_1_n_n.rhsIdx i q 0).val = (q ⟨0, by decide⟩).val :=
  dot_S100000x128_S128x128_S100000x128_1_0_0_1_n_n.rhsIdx_val_of_single rfl i q
theorem r1_first (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

theorem l0_second (i : S100000x64.Idx) (q : dot_S100000x128_S128x64_S100000x64_1_0_0_1_n_n.contr.Idx) : (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem l1_second (i : S100000x64.Idx) (q : dot_S100000x128_S128x64_S100000x64_1_0_0_1_n_n.contr.Idx) : (dot_S100000x128_S128x64_S100000x64_1_0_0_1_n_n.lhsIdx i q 1).val = (q ⟨0, by decide⟩).val :=
  dot_S100000x128_S128x64_S100000x64_1_0_0_1_n_n.lhsIdx_val_of_single rfl i q
theorem r0_second (i : S100000x64.Idx) (q : dot_S100000x128_S128x64_S100000x64_1_0_0_1_n_n.contr.Idx) : (dot_S100000x128_S128x64_S100000x64_1_0_0_1_n_n.rhsIdx i q 0).val = (q ⟨0, by decide⟩).val :=
  dot_S100000x128_S128x64_S100000x64_1_0_0_1_n_n.rhsIdx_val_of_single rfl i q
theorem r1_second (i : S100000x64.Idx) (q : dot_S100000x128_S128x64_S100000x64_1_0_0_1_n_n.contr.Idx) : (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- The host's first product is the whole product x · W1. -/
theorem product_first (x : FVec Ideal S100000x128 .f32) (w : FVec Ideal S128x128 .f32) :
    Host.dotGeneral (F := Ideal) dot_S100000x128_S128x128_S100000x128_1_0_0_1_n_n none x w = Cert.Gcn.dense1 x w := by
  funext i
  obtain ⟨p, q, rfl⟩ : ∃ (p : Fin 100000) (q : Fin 128), i = ix2 p q := ⟨i 0, i 1, eq_ix2 i⟩
  exact Cert.RowOps.dotGeneral_entry dot_S100000x128_S128x128_S100000x128_1_0_0_1_n_n rfl rfl l0_first l1_first r0_first r1_first none x w p q

/-- The host's second product, of the clamped hidden features, is the whole product max(h, 0) · W2. -/
theorem product_second (h : FVec Ideal S100000x128 .f32) (w : FVec Ideal S128x64 .f32) :
    @Host.dotGeneral Ideal _ S100000x128 S128x64 S100000x64 .f32 .f32 dot_S100000x128_S128x64_S100000x64_1_0_0_1_n_n none (Cert.Gcn.relu (F := Ideal) h) w = Cert.Gcn.dense2 h w := by
  funext i
  obtain ⟨p, q, rfl⟩ : ∃ (p : Fin 100000) (q : Fin 64), i = ix2 p q := ⟨i 0, i 1, eq_ix2 i⟩
  refine (Cert.RowOps.dotGeneral_entry dot_S100000x128_S128x64_S100000x64_1_0_0_1_n_n rfl rfl l0_second l1_second r0_second r1_second none (φ₁ := .f32) (Cert.Gcn.relu (F := Ideal) h) w p q).trans ?_
  rfl

end Cert.ReferenceIdeal.HandDense

end
-- ==== Proof.lean ====
/-
  A two-layer graph convolution: the Pallas program against its jnp reference, on the extended reals.

  Both programs compute, for node features x [100000, 128], an edge list e [2, 1600000] and weights W1, b1, W2, b2,

      out = A₂( max(A₁(x · W1), 0) · W2 )

  where Aᵢ aggregates over the edges: every node gets a self loop, an edge is weighted by the product of its two
  endpoints' 1/sqrt(max(degree, 1)) (the zero word at degree 0), each edge's source row is scaled by that weight and
  summed into its destination node, and the layer's bias row is added.  The aggregation is the same host operations
  in the two programs.  They differ only in how the two dense products are taken: the kernel program multiplies in
  two row-blocked regions of ten grid points each (the second clamping its input at the zero word inside the body),
  the reference with the host's `dot_general` after a host clamp.  On the extended reals a change of float format is
  the identity and each product's entry (p, q) is the same sum over the 128 shared coordinates of row p against
  column q, so the results are equal entry by entry; no finiteness is used.

  The frames of the two kernel programs are the generated ones; the reference's frame is its run with the result
  dropped; the ideal pass rewrote nothing, so `preserves` is trivial.
-/
import proofs.«116013_j12077448036413_1_alg».proof.Defs
import proofs.«116013_j12077448036413_1_alg».proof.Proof.Gen.Kernel
import proofs.«116013_j12077448036413_1_alg».proof.Proof.Gen.Kernel.Skeleton
import proofs.«116013_j12077448036413_1_alg».proof.Proof.Gen.Kernel.Launch
import proofs.«116013_j12077448036413_1_alg».proof.Proof.Gen.Kernel.Points
import proofs.«116013_j12077448036413_1_alg».proof.Proof.Gen.Kernel.Frame
import proofs.«116013_j12077448036413_1_alg».proof.Proof.Gen.KernelIdeal
import proofs.«116013_j12077448036413_1_alg».proof.Proof.Gen.KernelIdeal.Skeleton
import proofs.«116013_j12077448036413_1_alg».proof.Proof.Gen.KernelIdeal.Launch
import proofs.«116013_j12077448036413_1_alg».proof.Proof.Gen.KernelIdeal.Points
import proofs.«116013_j12077448036413_1_alg».proof.Proof.Gen.KernelIdeal.Frame
import proofs.«116013_j12077448036413_1_alg».proof.Proof.Gen.ReferenceIdeal
import proofs.«116013_j12077448036413_1_alg».proof.Proof.Gen.Pre_finite_inputs
import proofs.«116013_j12077448036413_1_alg».proof.Proof.KernelRun
import proofs.«116013_j12077448036413_1_alg».proof.Proof.KernelValue
import proofs.«116013_j12077448036413_1_alg».proof.Proof.RefRun
import proofs.«116013_j12077448036413_1_alg».proof.Proof.RefDense
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The ideal pass rewrote no operation. -/
theorem preserves : Cert.preserves_Kernel_KernelIdeal := trivial

/-- The kernel program's result array ends at two layers over the row-blocked products, the reference's at two layers
    over the host's products, of arguments that agree; the products are equal entry by entry. -/
theorem algebraic : Cert.algebraic_KernelIdeal_ReferenceIdeal := by
  intro m ρ m' ρ' _ hagree
  refine ⟨fun c => Cert.KernelIdeal.Closed.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Closed.W6_result m ρ c), (h c).2⟩)
      (Cert.KernelIdeal.Run.run_result m ρ)
  · refine (θ_run Cert.ReferenceIdeal.defs _ _).mono (fun _ h c => ⟨(h c).1.trans ?_, (h c).2⟩)
      (Cert.ReferenceIdeal.Hand.run (F := Ideal) m' ρ')
    obtain ⟨a0, a1, a2, a3, a4, a5⟩ := hagree c
    rw [a0, a1, a2, a3, a4, a5]
    unfold Cert.ReferenceIdeal.Hand.result Cert.KernelIdeal.Closed.result
    rw [Cert.ReferenceIdeal.HandDense.product_first, Cert.ReferenceIdeal.HandDense.product_second]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
